-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x8192 : Shape := ⟨2, ![4096, 8192]⟩
abbrev S8192x4096 : Shape := ⟨2, ![8192, 4096]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x128 .f32) (main_arg1 : FVec F S4096x8192 .f32) (main_arg2 : FVec F S8192x4096 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x128 : Shape := ⟨2, ![8192, 128]⟩
abbrev S4096x8192 : Shape := ⟨2, ![4096, 8192]⟩
abbrev S8192x4096 : Shape := ⟨2, ![8192, 4096]⟩
abbrev S_ : Shape := ⟨0, ![]⟩
abbrev S4096x128 : Shape := ⟨2, ![4096, 128]⟩
abbrev S512x8192 : Shape := ⟨2, ![512, 8192]⟩
abbrev S512x128 : Shape := ⟨2, ![512, 128]⟩
abbrev S512x4096 : Shape := ⟨2, ![512, 4096]⟩

abbrev nBuf : Space → Nat
  | .hbm => 13
  | .vmem => 28
  | .smem => 0
  | _ => 0

abbrev bufTy : (tb : Table) → Fin (tcTables nBuf tb) → BufTy
  | .hbm, ⟨0, _⟩ => ⟨S8192x128, .f32⟩
  | .hbm, ⟨1, _⟩ => ⟨S4096x8192, .f32⟩
  | .hbm, ⟨2, _⟩ => ⟨S8192x4096, .f32⟩
  | .hbm, ⟨3, _⟩ => ⟨S_, .f32⟩
  | .hbm, ⟨4, _⟩ => ⟨S4096x128, .f32⟩
  | .hbm, ⟨5, _⟩ => ⟨S4096x128, .f32⟩
  | .hbm, ⟨6, _⟩ => ⟨S8192x128, .f32⟩
  | .hbm, ⟨7, _⟩ => ⟨S4096x128, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x4096, .f32⟩
  | .local _ .vmem, ⟨8, _⟩ => ⟨S512x4096, .f32⟩
  | .local _ .vmem, ⟨9, _⟩ => ⟨S4096x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x8192, .f32⟩
  | .local _ .vmem, ⟨15, _⟩ => ⟨S512x8192, .f32⟩
  | .local _ .vmem, ⟨16, _⟩ => ⟨S8192x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x4096, .f32⟩
  | .local _ .vmem, ⟨22, _⟩ => ⟨S512x4096, .f32⟩
  | .local _ .vmem, ⟨23, _⟩ => ⟨S4096x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S4096x128 : S_.BroadcastsInDim S4096x128 (![] : Fin 0 → Fin S4096x128.rank)
  inb_S512x8192_S512x8192_0_0 : ∀ a, (![0, 0] : Fin 2 → Nat) a + S512x8192.size a ≤ S512x8192.size a
  h_S512x8192 : 0 < S512x8192.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S8192x128_S8192x128 : S8192x128.ShapeCasts S8192x128
  bcast_S_S8192x128 : S_.BroadcastsInDim S8192x128 (![] : Fin 0 → Fin S8192x128.rank)
  dot_S512x8192_S8192x128_S512x128_1_0_0_1_n_n_wf : DotDims.WF S512x8192 S8192x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S4096x8192.size a
  hwx0_0 : ∀ i : grid0.Coords, EltTy.bits .f32 = 32 ∨ (Rect.block (s := S4096x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S4096x8192.size a
  hwx2_0 : ∀ i : grid2.Coords, EltTy.bits .f32 = 32 ∨ (Rect.block (s := S4096x8192) S512x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .f32 = 32 ∨ (Rect.block (s := S4096x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .f32 = 32 ∨ (Rect.block (s := S8192x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S8192x128.size a
  hwx3_2 : ∀ i : grid3.Coords, EltTy.bits .f32 = 32 ∨ (Rect.block (s := S8192x128) S512x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S8192x128.size a
  hwx3_3 : ∀ i : grid3.Coords, EltTy.bits .f32 = 32 ∨ (Rect.block (s := S8192x128) S512x128.size (cc3_transform_3 i) (hinb3_3 i)).WholeWords (EltTy.packing .f32)

variable [Facts₀]

def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x128 : Shape := ⟨2, ![8192, 128]⟩
abbrev S4096x8192 : Shape := ⟨2, ![4096, 8192]⟩
abbrev S8192x4096 : Shape := ⟨2, ![8192, 4096]⟩
abbrev S4096x128 : Shape := ⟨2, ![4096, 128]⟩
abbrev S1x8192x128 : Shape := ⟨3, ![1, 8192, 128]⟩
abbrev S3x8192x128 : Shape := ⟨3, ![3, 8192, 128]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4096x8192, .f32⟩
  | .hbm, ⟨2, _⟩ => ⟨S8192x4096, .f32⟩
  | .hbm, ⟨3, _⟩ => ⟨S4096x128, .f32⟩
  | .hbm, ⟨4, _⟩ => ⟨S8192x128, .f32⟩
  | .hbm, ⟨5, _⟩ => ⟨S8192x128, .f32⟩
  | .hbm, ⟨6, _⟩ => ⟨S4096x128, .f32⟩
  | .hbm, ⟨7, _⟩ => ⟨S8192x128, .f32⟩
  | .hbm, ⟨8, _⟩ => ⟨S8192x128, .f32⟩
  | .hbm, ⟨9, _⟩ => ⟨S1x8192x128, .f32⟩
  | .hbm, ⟨10, _⟩ => ⟨S1x8192x128, .f32⟩
  | .hbm, ⟨11, _⟩ => ⟨S1x8192x128, .f32⟩
  | .hbm, ⟨12, _⟩ => ⟨S3x8192x128, .f32⟩
  | .hbm, ⟨13, _⟩ => ⟨S_, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S8192x128_S1x8192x128_1_2 : S8192x128.BroadcastsInDim S1x8192x128 (![1, 2] : Fin 2 → Fin S1x8192x128.rank)
  concatenates_S1x8192x128_S1x8192x128_S1x8192x128_S3x8192x128_d0 : Shape.Concatenates [S1x8192x128, S1x8192x128, S1x8192x128] S3x8192x128 0
  reducesTo_S3x8192x128_S8192x128_d0 : S3x8192x128.ReducesTo [0] S8192x128
  h_S_ : 0 < S_.numel
  bcast_S_S8192x128 : S_.BroadcastsInDim S8192x128 (![] : Fin 0 → Fin S8192x128.rank)
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []

variable [Facts₀]

def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf

class Facts : Prop extends Facts₀ where

variable [Facts]
-- ==== Proof.KernelRun.lean ====
/-
  The idealized kernel's run with its result named.

  The program is four pipelined stages among two stretches of host operations.  Every weakly fair execution terminates,
  and at the end each unscoped buffer of a core holds what the fold of the six segments leaves there: the result
  buffer holds the last stage's output array as the fold names it, and the three argument arrays are as launched.
  What that array is, as a function of the arguments, is read in the modules that follow.
-/
import proofs.«144278_g8864812499581_cont_9to1_m_655_4_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments from the launch memory: it terminates without a fault, the result buffer ends at the
    fold's contents (the last stage's output array after its write-backs), and the arguments end as launched. -/
theorem run : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Valued

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMatProd.lean ====
/-
  The product of two matrices on the extended reals as ONE whole-array function, and two ways a program spells it.

  For an [m, K] matrix l and a [K, n] matrix r the product is the [m, n] matrix whose entry (p, q) is
  Σ_k l(p, k) · r(k, q).  The host's `dot_general` of the plain form (axis 1 of the left against axis 0 of the right,
  no batch axis) IS that matrix, and so is a kernel's `tpu.matmul` of the same form accumulated into the zero splat:
  both are the textbook sum at every entry, and a matrix is its entries.  No finiteness is used: nothing is
  re-associated or distributed.
-/
import proofs.«144278_g8864812499581_cont_9to1_m_655_4_alg».proof.Proof.LibPlainMatmul

noncomputable section

namespace Cert.MatProd

open Idealize.ShloMosaic Idealize.ShloMosaic.ValueIdx

/-- The matrix product, entry by entry. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

/-- The product read at (p, q). -/
theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

/-- The host's plain `dot_general` is the matrix product, as a whole array, under any schedule key. -/
theorem dotGeneral_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) :
    FloatOps.dotGeneral (PlainMatmul.plain wf) prec sched l r = matProd l r := by
  funext i
  obtain ⟨p, q, rfl⟩ : ∃ (p : Fin m) (q : Fin n), i = ix2 p q := ⟨i 0, i 1, eq_ix2 i⟩
  exact PlainMatmul.dotGeneral_apply wf prec sched l r p q

/-- A kernel's plain `tpu.matmul` into the zero splat is the matrix product, as a whole block. -/
theorem matmul_zero_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) :
    FloatOps.matmul (PlainMatmul.plain wf) prec l r (constant (⟨2, ![m, n]⟩ : Shape) .f32 0x00000000#32) = matProd l r := by
  funext i
  obtain ⟨p, q, rfl⟩ : ∃ (p : Fin m) (q : Fin n), i = ix2 p q := ⟨i 0, i 1, eq_ix2 i⟩
  exact PlainMatmul.matmul_zero_apply wf prec l r p q

end Cert.MatProd

end
-- ==== Proof.HyperSpec.lean ====
/-
  Two layers of two-stage hypergraph propagation with residuals, and their mean, on the extended reals.

  With an incidence matrix  up : [4096, 8192]  from points to users, its companion  pu : [8192, 4096]  back, and point
  embeddings  p0 : [8192, 128],  one layer sends  p  to  pu · (up · p) + p.  The result is the mean of  p0,  p1 = layer p0
  and  p2 = layer p1.

  A stage is the building block  (a · x + r) · s :  a matrix product, a residual, a scale.  Run as four stages — scales
  1, 1, 1 and one third, the last residual  p0 + 2 · p1  — the propagation ends at  (pu · (up · p1) + (p0 + 2 · p1)) · ⅓,
  and that is the mean: doubling is adding a number to itself on every extended real, addition there is commutative and
  associative, and no term is distributed or cancelled, so nothing needs to be finite.
-/
import proofs.«144278_g8864812499581_cont_9to1_m_655_4_alg».proof.Proof.LibMatProd
import Idealize.ShloMosaic.PureOps.Ideal.Laws

noncomputable section

namespace Cert.HyperConv

open Idealize.ShloMosaic Idealize.ShloMosaic.ValueIdx Cert.MatProd

/-- An [r, c] matrix of extended reals. -/
abbrev Mat (r c : ℕ) : Type := (⟨2, ![r, c]⟩ : Shape).Idx → EReal

/-! ## The float literals the two programs spell -/

/-- The pattern of `1.0` denotes 1. -/
theorem ofBits_one : Ideal.ofBits .f32 0x3F800000#32 = 1 := by
  simp [Ideal.ofBits, Ideal.ieee, -EReal.coe_mul]; norm_num

/-- The pattern of `2.0` denotes the real 2. -/
theorem ofBits_two : Ideal.ofBits .f32 0x40000000#32 = ((2 : ℝ) : EReal) := by
  simp [Ideal.ofBits, Ideal.ieee, -EReal.coe_mul]; norm_num

/-- The pattern of `3.0` denotes the real 3. -/
theorem ofBits_three : Ideal.ofBits .f32 0x40400000#32 = ((3 : ℝ) : EReal) := by
  simp [Ideal.ofBits, Ideal.ieee, -EReal.coe_mul]; norm_num

/-- The origin of a rank-2 block, as a list and as a function. -/
theorem origin2 : (![0, 0] : Fin 2 → Nat) = fun _ => 0 := funext fun a => by fin_cases a <;> rfl

/-! ## One stage -/

/-- `(a · x + r) · s`, entry by entry. -/
def stage {m K n : ℕ} (a : Mat m K) (x : Mat K n) (r : Mat m n) (s : EReal) : Mat m n :=
  fun i => (matProd a x i + r i) * s

/-- A stage of equal operands is equal. -/
theorem stage_congr {m K n : ℕ} {a a' : Mat m K} {x x' : Mat K n} {r r' : Mat m n} (s : EReal)
    (ha : a = a') (hx : x = x') (hr : r = r') : stage a x r s = stage a' x' r' s := by
  subst ha hx hr; rfl

/-- A stage of scale 1 is the product plus the residual. -/
theorem stage_one {m K n : ℕ} (a : Mat m K) (x : Mat K n) (r : Mat m n) :
    stage a x r 1 = fun i => matProd a x i + r i := by
  funext i; unfold stage; rw [mul_one]

/-- A stage of scale 1 with the zero residual is the product. -/
theorem stage_zero_one {m K n : ℕ} (a : Mat m K) (x : Mat K n) :
    stage a x (fun _ => 0) 1 = matProd a x := by
  funext i; unfold stage; rw [add_zero, mul_one]

/-- A block of a stage.  Rows `b·512 … b·512 + 511` of a stage's result depend on the same rows of the left matrix and
    of the residual, and on the whole right matrix: if `x0`, `x2` are those rows and `x1` is the right matrix, a
    [512, n] block whose entry (p, q) is `(Σ_k x0(p, k) · x1(k, q) + x2(p, q)) · s` is the stage's result read at row
    `b·512 + p`, column `q`. -/
theorem stage_of_block {M K n : ℕ} (a : Mat M K) (x : Mat K n) (r : Mat M n) (s : EReal)
    (x0 : Mat 512 K) (x1 : Mat K n) (x2 : Mat 512 n) (pay : Mat 512 n)
    (hpay : ∀ (p : Fin 512) (q : Fin n), pay (ix2 p q) = (∑ k : Fin K, x0 (ix2 p k) * x1 (ix2 k q) + x2 (ix2 p q)) * s)
    (b : ℕ)
    (h0 : ∀ (p : Fin 512) (k : Fin K) (i : Fin M), i.val = b * 512 + p.val → x0 (ix2 p k) = a (ix2 i k))
    (h1 : x1 = x)
    (h2 : ∀ (p : Fin 512) (q : Fin n) (i : Fin M), i.val = b * 512 + p.val → x2 (ix2 p q) = r (ix2 i q))
    (j : (⟨2, ![512, n]⟩ : Shape).Idx) (i : (⟨2, ![M, n]⟩ : Shape).Idx)
    (hi0 : (i 0).val = b * 512 + (j 0).val) (hi1 : (i 1).val = (j 1).val) :
    pay j = stage a x r s i := by
  obtain ⟨p, q, rfl⟩ : ∃ (p : Fin 512) (q : Fin n), j = ix2 p q := ⟨j 0, j 1, eq_ix2 j⟩
  obtain ⟨i0, i1, rfl⟩ : ∃ (i0 : Fin M) (i1 : Fin n), i = ix2 i0 i1 := ⟨i 0, i 1, eq_ix2 i⟩
  have e1 : i1 = q := Fin.ext hi1
  subst e1 h1
  rw [hpay]
  unfold stage
  rw [matProd_apply, h2 p i1 i0 hi0]
  exact congrArg (fun z : EReal => (z + r (ix2 i0 i1)) * s)
    (Finset.sum_congr rfl fun k _ => congrArg (· * x1 (ix2 k i1)) (h0 p k i0 hi0))

/-! ## The propagation -/

/-- One layer: `pu · (up · p) + p`. -/
def layer (up : Mat 4096 8192) (pu : Mat 8192 4096) (p : Mat 8192 128) : Mat 8192 128 :=
  fun i => matProd pu (matProd up p) i + p i

/-- The mean of the embeddings before, between and after the two layers. -/
def meanOfLayers (up : Mat 4096 8192) (pu : Mat 8192 4096) (p0 : Mat 8192 128) : Mat 8192 128 :=
  fun i => (p0 i + layer up pu p0 i + layer up pu (layer up pu p0) i) * ((1 / 3 : ℝ) : EReal)

/-- Doubling an extended real is adding it to itself, at the infinities too. -/
theorem two_mul_eq_add (x : EReal) : ((2 : ℝ) : EReal) * x = x + x := by
  induction x using EReal.rec with
  | bot => rw [EReal.coe_mul_bot_of_pos (by norm_num : (0 : ℝ) < 2)]; rfl
  | coe v => rw [← EReal.coe_mul, ← EReal.coe_add, two_mul]
  | top => rw [EReal.coe_mul_top_of_pos (by norm_num : (0 : ℝ) < 2)]; rfl

/-- The four stages end at the mean of the layers: `x + (p0 + 2 · p1) = p0 + p1 + (x + p1)` entry by entry, where
    `x = pu · (up · p1)`. -/
theorem stages_eq_mean (up : Mat 4096 8192) (pu : Mat 8192 4096) (p0 : Mat 8192 128) :
    stage pu (stage up (stage pu (stage up p0 (fun _ => 0) 1) p0 1) (fun _ => 0) 1)
        (fun i => p0 i + ((2 : ℝ) : EReal) * stage pu (stage up p0 (fun _ => 0) 1) p0 1 i) ((1 / 3 : ℝ) : EReal)
      = meanOfLayers up pu p0 := by
  have e1 : stage pu (stage up p0 (fun _ => 0) 1) p0 1 = layer up pu p0 := by
    rw [stage_zero_one, stage_one]; rfl
  rw [e1, stage_zero_one]
  funext i
  unfold stage meanOfLayers
  refine congrArg (· * ((1 / 3 : ℝ) : EReal)) ?_
  show matProd pu (matProd up (layer up pu p0)) i + (p0 i + ((2 : ℝ) : EReal) * layer up pu p0 i)
    = p0 i + layer up pu p0 i + (matProd pu (matProd up (layer up pu p0)) i + layer up pu p0 i)
  rw [two_mul_eq_add]
  abel

end Cert.HyperConv

end
-- ==== Proof.Stage0.lean ====
/-
  Stage 0 of the kernel as one whole-array function: the users' messages of the first layer, `up · p0`, with the zero residual and scale 1.

  The stage runs over 8 grid points.  At point t it holds rows t·512 … t·512 + 511 of the left matrix [4096, 8192] and of the
  residual [4096, 128], and the whole right matrix [8192, 128]; it computes, entry by entry, the product of its two blocks
  plus the residual block, times the scale, and writes that [512, 128] block back as rows t·512 … t·512 + 511 of the output.
  Entry (p, q) of the block is therefore entry (t·512 + p, q) of `stage a x r s` of the whole arrays; the 8 row blocks
  tile the 4096 rows; so the output array after the last write-back is `stage a x r s`.  The statement is at any contents
  `V` of the core's buffers at the stage's entry.
-/
import proofs.«144278_g8864812499581_cont_9to1_m_655_4_alg».proof.Proof.Gen.KernelIdeal.Frame
import proofs.«144278_g8864812499581_cont_9to1_m_655_4_alg».proof.Proof.HyperSpec
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.SL.Sem Idealize.ShloMosaic.ValueIdx
open Idealize.ShloMosaic.Pipeline (Dat)
open Cert.HyperConv

variable (V : (c : Dev nD) → (b : Ref sig .tc) → Buf (Elt Ideal) ((c : Thread nD τ).loc b))

/-- The body's arithmetic at entry (p, q) of its block: the matrix product's entry plus the residual's, times the scale
    (a change of float format is the identity on the extended reals, and the product is accumulated into zero). -/
theorem pay0_apply (x0 : Vec Ideal S512x8192 .f32) (x1 : Vec Ideal S8192x128 .f32) (x2 : Vec Ideal S512x128 .f32) (p : Fin 512) (q : Fin 128) :
    k0_pay1 (F := Ideal) x0 x1 x2 (ix2 p q)
      = (∑ k : Fin 8192, x0 (ix2 p k) * x1 (ix2 k q) + x2 (ix2 p q)) * Ideal.ofBits .f32 0x3F800000#32 := by
  unfold k0_pay1
  rw [shapeCast_self]
  exact congrArg (fun z : EReal => (z + x2 (ix2 p q)) * Ideal.ofBits .f32 0x3F800000#32)
    (PlainMatmul.matmul_zero_apply dot_S512x8192_S8192x128_S512x128_1_0_0_1_n_n.wf none
      (truncf .bf16 x0 bitsLt_bf16_f32) (truncf .bf16 x1 bitsLt_bf16_f32) p q)

/-- The block indices over the grid: the left matrix, the residual and the output move together down the rows, the right
    matrix stays, and every column index is 0. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 7 :=
  (by decide +kernel : ∀ t : Fin grid0.N, _)

/-- Every row block is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of the stage of the whole arrays. -/
theorem flushed0_eq (c : Dev nD) (t : Fin cfg0.N) :
    (dat0 V c).flushed 3 t = ((cfg0.win 3).blk t).view.read (Elt Ideal)
      (stage (V c main_arg1) (V c main_arg0) (V c main_v0) (Ideal.ofBits .f32 0x3F800000#32)) := by
  show (cfg0.win 3).cut (grid0.coords t) ((dat0 V c).after 3 t) = _
  rw [after0_3]
  unfold out0_3
  rw [View.canon_unit_zero origin2]
  simp only [View.ld_unit_zero (S := S512x8192) origin2, View.ld_unit_zero (S := S8192x128) origin2, View.ld_unit_zero (S := S512x128) origin2]
  obtain ⟨e0, e1, e2, e3, e4, e5, e6, e7⟩ := idx_facts0 t
  funext j
  show k0_pay1 (F := Ideal) (iblk0 V c 0 t) (iblk0 V c 1 t) (iblk0 V c 2 t) j
    = stage (V c main_arg1) (V c main_arg0) (V c main_v0) (Ideal.ofBits .f32 0x3F800000#32) (((cfg0.win 3).blk t).view.emb j)
  refine stage_of_block (V c main_arg1) (V c main_arg0) (V c main_v0) (Ideal.ofBits .f32 0x3F800000#32)
    (iblk0 V c 0 t) (iblk0 V c 1 t) (iblk0 V c 2 t) (k0_pay1 (F := Ideal) (iblk0 V c 0 t) (iblk0 V c 1 t) (iblk0 V c 2 t))
    (pay0_apply (iblk0 V c 0 t) (iblk0 V c 1 t) (iblk0 V c 2 t)) (win0_3.index t (0 : Fin 2)) ?_ ?_ ?_ j (((cfg0.win 3).blk t).view.emb j) ?_ ?_
  · intro p k i hi
    show V c main_arg1 (((cfg0.win 0).blk t).view.emb (ix2 p k)) = V c main_arg1 (ix2 i k)
    refine congrArg (V c main_arg1) (funext fun a => Fin.ext ?_)
    match a with
    | ⟨0, _⟩ => show win0_0.index t (0 : Fin 2) * 512 + 1 * p.val = i.val; omega
    | ⟨1, _⟩ => show win0_0.index t (1 : Fin 2) * 8192 + 1 * k.val = k.val; omega
  · funext y
    show V c main_arg0 (((cfg0.win 1).blk t).view.emb y) = V c main_arg0 y
    refine congrArg (V c main_arg0) (funext fun a => Fin.ext ?_)
    match a with
    | ⟨0, _⟩ => show win0_1.index t (0 : Fin 2) * 8192 + 1 * (y 0).val = (y 0).val; omega
    | ⟨1, _⟩ => show win0_1.index t (1 : Fin 2) * 128 + 1 * (y 1).val = (y 1).val; omega
  · intro p q i hi
    show V c main_v0 (((cfg0.win 2).blk t).view.emb (ix2 p q)) = V c main_v0 (ix2 i q)
    refine congrArg (V c main_v0) (funext fun a => Fin.ext ?_)
    match a with
    | ⟨0, _⟩ => show win0_2.index t (0 : Fin 2) * 512 + 1 * p.val = i.val; omega
    | ⟨1, _⟩ => show win0_2.index t (1 : Fin 2) * 128 + 1 * q.val = q.val; omega
  · show win0_3.index t (0 : Fin 2) * 512 + 1 * (j 0).val = win0_3.index t (0 : Fin 2) * 512 + (j 0).val; omega
  · show win0_3.index t (1 : Fin 2) * 128 + 1 * (j 1).val = (j 1).val; omega

/-- An index of the output array is in point `t`'s block iff each coordinate is in the block's range on its axis. -/
theorem mem_blk0 (t : Fin cfg0.N) (i : S4096x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v1).slice (win0_3.rect t)).set ↔ _
  rw [View.set_slice_whole, Rect.mem_set_unit]
  exact Iff.rfl

/-- The row blocks tile the output: row `r` is in the block of the point whose block index is `r / 512`. -/
theorem cover0 (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The output array after the stage's last write-back is the stage of the arrays it found. -/
theorem final0 (c : Dev nD) : (dat0 V c).arrAt 3 cfg0.N
    = stage (V c main_arg1) (V c main_arg0) (V c main_v0) (Ideal.ofBits .f32 0x3F800000#32) :=
  (dat0 V c).arrAt_eq_of_cover 3 _ (fun t _ => flushed0_eq V c t) cover0

end Cert.KernelIdeal.Stages

end
-- ==== Proof.Stage1.lean ====
/-
  Stage 1 of the kernel as one whole-array function: the first layer's output, `pu · m1 + p0`, with scale 1.

  The stage runs over 16 grid points.  At point t it holds rows t·512 … t·512 + 511 of the left matrix [8192, 4096] and of the
  residual [8192, 128], and the whole right matrix [4096, 128]; it computes, entry by entry, the product of its two blocks
  plus the residual block, times the scale, and writes that [512, 128] block back as rows t·512 … t·512 + 511 of the output.
  Entry (p, q) of the block is therefore entry (t·512 + p, q) of `stage a x r s` of the whole arrays; the 16 row blocks
  tile the 8192 rows; so the output array after the last write-back is `stage a x r s`.  The statement is at any contents
  `V` of the core's buffers at the stage's entry.
-/
import proofs.«144278_g8864812499581_cont_9to1_m_655_4_alg».proof.Proof.Gen.KernelIdeal.Frame
import proofs.«144278_g8864812499581_cont_9to1_m_655_4_alg».proof.Proof.HyperSpec
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.SL.Sem Idealize.ShloMosaic.ValueIdx
open Idealize.ShloMosaic.Pipeline (Dat)
open Cert.HyperConv

variable (V : (c : Dev nD) → (b : Ref sig .tc) → Buf (Elt Ideal) ((c : Thread nD τ).loc b))

/-- The body's arithmetic at entry (p, q) of its block: the matrix product's entry plus the residual's, times the scale
    (a change of float format is the identity on the extended reals, and the product is accumulated into zero). -/
theorem pay1_apply (x0 : Vec Ideal S512x4096 .f32) (x1 : Vec Ideal S4096x128 .f32) (x2 : Vec Ideal S512x128 .f32) (p : Fin 512) (q : Fin 128) :
    k1_pay1 (F := Ideal) x0 x1 x2 (ix2 p q)
      = (∑ k : Fin 4096, x0 (ix2 p k) * x1 (ix2 k q) + x2 (ix2 p q)) * Ideal.ofBits .f32 0x3F800000#32 := by
  unfold k1_pay1
  rw [shapeCast_self]
  exact congrArg (fun z : EReal => (z + x2 (ix2 p q)) * Ideal.ofBits .f32 0x3F800000#32)
    (PlainMatmul.matmul_zero_apply dot_S512x4096_S4096x128_S512x128_1_0_0_1_n_n.wf none
      (truncf .bf16 x0 bitsLt_bf16_f32) (truncf .bf16 x1 bitsLt_bf16_f32) p q)

/-- The block indices over the grid: the left matrix, the residual and the output move together down the rows, the right
    matrix stays, and every column index is 0. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0
    ∧ win1_3.index t (0 : Fin 2) ≤ 15 :=
  (by decide +kernel : ∀ t : Fin grid1.N, _)

/-- Every row block is some point's. -/
theorem idx_onto1 : ∀ q0 : Fin 16, ∃ t : Fin cfg1.N, win1_3.index t = ![q0.val, 0] :=
  (by decide +kernel : ∀ q0 : Fin 16, ∃ t : Fin grid1.N, win1_3.index t = ![q0.val, 0])

/-- What point `t` writes back is block `t` of the stage of the whole arrays. -/
theorem flushed1_eq (c : Dev nD) (t : Fin cfg1.N) :
    (dat1 V c).flushed 3 t = ((cfg1.win 3).blk t).view.read (Elt Ideal)
      (stage (V c main_arg2) (V c main_v1) (V c main_arg0) (Ideal.ofBits .f32 0x3F800000#32)) := by
  show (cfg1.win 3).cut (grid1.coords t) ((dat1 V c).after 3 t) = _
  rw [after1_3]
  unfold out1_3
  rw [View.canon_unit_zero origin2]
  simp only [View.ld_unit_zero (S := S512x4096) origin2, View.ld_unit_zero (S := S4096x128) origin2, View.ld_unit_zero (S := S512x128) origin2]
  obtain ⟨e0, e1, e2, e3, e4, e5, e6, e7⟩ := idx_facts1 t
  funext j
  show k1_pay1 (F := Ideal) (iblk1 V c 0 t) (iblk1 V c 1 t) (iblk1 V c 2 t) j
    = stage (V c main_arg2) (V c main_v1) (V c main_arg0) (Ideal.ofBits .f32 0x3F800000#32) (((cfg1.win 3).blk t).view.emb j)
  refine stage_of_block (V c main_arg2) (V c main_v1) (V c main_arg0) (Ideal.ofBits .f32 0x3F800000#32)
    (iblk1 V c 0 t) (iblk1 V c 1 t) (iblk1 V c 2 t) (k1_pay1 (F := Ideal) (iblk1 V c 0 t) (iblk1 V c 1 t) (iblk1 V c 2 t))
    (pay1_apply (iblk1 V c 0 t) (iblk1 V c 1 t) (iblk1 V c 2 t)) (win1_3.index t (0 : Fin 2)) ?_ ?_ ?_ j (((cfg1.win 3).blk t).view.emb j) ?_ ?_
  · intro p k i hi
    show V c main_arg2 (((cfg1.win 0).blk t).view.emb (ix2 p k)) = V c main_arg2 (ix2 i k)
    refine congrArg (V c main_arg2) (funext fun a => Fin.ext ?_)
    match a with
    | ⟨0, _⟩ => show win1_0.index t (0 : Fin 2) * 512 + 1 * p.val = i.val; omega
    | ⟨1, _⟩ => show win1_0.index t (1 : Fin 2) * 4096 + 1 * k.val = k.val; omega
  · funext y
    show V c main_v1 (((cfg1.win 1).blk t).view.emb y) = V c main_v1 y
    refine congrArg (V c main_v1) (funext fun a => Fin.ext ?_)
    match a with
    | ⟨0, _⟩ => show win1_1.index t (0 : Fin 2) * 4096 + 1 * (y 0).val = (y 0).val; omega
    | ⟨1, _⟩ => show win1_1.index t (1 : Fin 2) * 128 + 1 * (y 1).val = (y 1).val; omega
  · intro p q i hi
    show V c main_arg0 (((cfg1.win 2).blk t).view.emb (ix2 p q)) = V c main_arg0 (ix2 i q)
    refine congrArg (V c main_arg0) (funext fun a => Fin.ext ?_)
    match a with
    | ⟨0, _⟩ => show win1_2.index t (0 : Fin 2) * 512 + 1 * p.val = i.val; omega
    | ⟨1, _⟩ => show win1_2.index t (1 : Fin 2) * 128 + 1 * q.val = q.val; omega
  · show win1_3.index t (0 : Fin 2) * 512 + 1 * (j 0).val = win1_3.index t (0 : Fin 2) * 512 + (j 0).val; omega
  · show win1_3.index t (1 : Fin 2) * 128 + 1 * (j 1).val = (j 1).val; omega

/-- An index of the output array is in point `t`'s block iff each coordinate is in the block's range on its axis. -/
theorem mem_blk1 (t : Fin cfg1.N) (i : S8192x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v2).slice (win1_3.rect t)).set ↔ _
  rw [View.set_slice_whole, Rect.mem_set_unit]
  exact Iff.rfl

/-- The row blocks tile the output: row `r` is in the block of the point whose block index is `r / 512`. -/
theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- The output array after the stage's last write-back is the stage of the arrays it found. -/
theorem final1 (c : Dev nD) : (dat1 V c).arrAt 3 cfg1.N
    = stage (V c main_arg2) (V c main_v1) (V c main_arg0) (Ideal.ofBits .f32 0x3F800000#32) :=
  (dat1 V c).arrAt_eq_of_cover 3 _ (fun t _ => flushed1_eq V c t) cover1

end Cert.KernelIdeal.Stages

end
-- ==== Proof.Stage2.lean ====
/-
  Stage 2 of the kernel as one whole-array function: the users' messages of the second layer, `up · p1`, with the zero residual and scale 1.

  The stage runs over 8 grid points.  At point t it holds rows t·512 … t·512 + 511 of the left matrix [4096, 8192] and of the
  residual [4096, 128], and the whole right matrix [8192, 128]; it computes, entry by entry, the product of its two blocks
  plus the residual block, times the scale, and writes that [512, 128] block back as rows t·512 … t·512 + 511 of the output.
  Entry (p, q) of the block is therefore entry (t·512 + p, q) of `stage a x r s` of the whole arrays; the 8 row blocks
  tile the 4096 rows; so the output array after the last write-back is `stage a x r s`.  The statement is at any contents
  `V` of the core's buffers at the stage's entry.
-/
import proofs.«144278_g8864812499581_cont_9to1_m_655_4_alg».proof.Proof.Gen.KernelIdeal.Frame
import proofs.«144278_g8864812499581_cont_9to1_m_655_4_alg».proof.Proof.HyperSpec
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.SL.Sem Idealize.ShloMosaic.ValueIdx
open Idealize.ShloMosaic.Pipeline (Dat)
open Cert.HyperConv

variable (V : (c : Dev nD) → (b : Ref sig .tc) → Buf (Elt Ideal) ((c : Thread nD τ).loc b))

/-- The body's arithmetic at entry (p, q) of its block: the matrix product's entry plus the residual's, times the scale
    (a change of float format is the identity on the extended reals, and the product is accumulated into zero). -/
theorem pay2_apply (x0 : Vec Ideal S512x8192 .f32) (x1 : Vec Ideal S8192x128 .f32) (x2 : Vec Ideal S512x128 .f32) (p : Fin 512) (q : Fin 128) :
    k2_pay1 (F := Ideal) x0 x1 x2 (ix2 p q)
      = (∑ k : Fin 8192, x0 (ix2 p k) * x1 (ix2 k q) + x2 (ix2 p q)) * Ideal.ofBits .f32 0x3F800000#32 := by
  unfold k2_pay1
  rw [shapeCast_self, shapeCast_self]
  exact congrArg (fun z : EReal => (z + x2 (ix2 p q)) * Ideal.ofBits .f32 0x3F800000#32)
    (PlainMatmul.matmul_zero_apply dot_S512x8192_S8192x128_S512x128_1_0_0_1_n_n.wf none
      (truncf .bf16 x0 bitsLt_bf16_f32) (truncf .bf16 x1 bitsLt_bf16_f32) p q)

/-- The block indices over the grid: the left matrix, the residual and the output move together down the rows, the right
    matrix stays, and every column index is 0. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 7 :=
  (by decide +kernel : ∀ t : Fin grid2.N, _)

/-- Every row block is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of the stage of the whole arrays. -/
theorem flushed2_eq (c : Dev nD) (t : Fin cfg2.N) :
    (dat2 V c).flushed 3 t = ((cfg2.win 3).blk t).view.read (Elt Ideal)
      (stage (V c main_arg1) (V c main_v2) (V c main_v0) (Ideal.ofBits .f32 0x3F800000#32)) := by
  show (cfg2.win 3).cut (grid2.coords t) ((dat2 V c).after 3 t) = _
  rw [after2_3]
  unfold out2_3
  rw [View.canon_unit_zero origin2]
  simp only [View.ld_unit_zero (S := S512x8192) origin2, View.ld_unit_zero (S := S8192x128) origin2, View.ld_unit_zero (S := S512x128) origin2]
  obtain ⟨e0, e1, e2, e3, e4, e5, e6, e7⟩ := idx_facts2 t
  funext j
  show k2_pay1 (F := Ideal) (iblk2 V c 0 t) (iblk2 V c 1 t) (iblk2 V c 2 t) j
    = stage (V c main_arg1) (V c main_v2) (V c main_v0) (Ideal.ofBits .f32 0x3F800000#32) (((cfg2.win 3).blk t).view.emb j)
  refine stage_of_block (V c main_arg1) (V c main_v2) (V c main_v0) (Ideal.ofBits .f32 0x3F800000#32)
    (iblk2 V c 0 t) (iblk2 V c 1 t) (iblk2 V c 2 t) (k2_pay1 (F := Ideal) (iblk2 V c 0 t) (iblk2 V c 1 t) (iblk2 V c 2 t))
    (pay2_apply (iblk2 V c 0 t) (iblk2 V c 1 t) (iblk2 V c 2 t)) (win2_3.index t (0 : Fin 2)) ?_ ?_ ?_ j (((cfg2.win 3).blk t).view.emb j) ?_ ?_
  · intro p k i hi
    show V c main_arg1 (((cfg2.win 0).blk t).view.emb (ix2 p k)) = V c main_arg1 (ix2 i k)
    refine congrArg (V c main_arg1) (funext fun a => Fin.ext ?_)
    match a with
    | ⟨0, _⟩ => show win2_0.index t (0 : Fin 2) * 512 + 1 * p.val = i.val; omega
    | ⟨1, _⟩ => show win2_0.index t (1 : Fin 2) * 8192 + 1 * k.val = k.val; omega
  · funext y
    show V c main_v2 (((cfg2.win 1).blk t).view.emb y) = V c main_v2 y
    refine congrArg (V c main_v2) (funext fun a => Fin.ext ?_)
    match a with
    | ⟨0, _⟩ => show win2_1.index t (0 : Fin 2) * 8192 + 1 * (y 0).val = (y 0).val; omega
    | ⟨1, _⟩ => show win2_1.index t (1 : Fin 2) * 128 + 1 * (y 1).val = (y 1).val; omega
  · intro p q i hi
    show V c main_v0 (((cfg2.win 2).blk t).view.emb (ix2 p q)) = V c main_v0 (ix2 i q)
    refine congrArg (V c main_v0) (funext fun a => Fin.ext ?_)
    match a with
    | ⟨0, _⟩ => show win2_2.index t (0 : Fin 2) * 512 + 1 * p.val = i.val; omega
    | ⟨1, _⟩ => show win2_2.index t (1 : Fin 2) * 128 + 1 * q.val = q.val; omega
  · show win2_3.index t (0 : Fin 2) * 512 + 1 * (j 0).val = win2_3.index t (0 : Fin 2) * 512 + (j 0).val; omega
  · show win2_3.index t (1 : Fin 2) * 128 + 1 * (j 1).val = (j 1).val; omega

/-- An index of the output array is in point `t`'s block iff each coordinate is in the block's range on its axis. -/
theorem mem_blk2 (t : Fin cfg2.N) (i : S4096x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v3).slice (win2_3.rect t)).set ↔ _
  rw [View.set_slice_whole, Rect.mem_set_unit]
  exact Iff.rfl

/-- The row blocks tile the output: row `r` is in the block of the point whose block index is `r / 512`. -/
theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- The output array after the stage's last write-back is the stage of the arrays it found. -/
theorem final2 (c : Dev nD) : (dat2 V c).arrAt 3 cfg2.N
    = stage (V c main_arg1) (V c main_v2) (V c main_v0) (Ideal.ofBits .f32 0x3F800000#32) :=
  (dat2 V c).arrAt_eq_of_cover 3 _ (fun t _ => flushed2_eq V c t) cover2

end Cert.KernelIdeal.Stages

end
-- ==== Proof.Stage3.lean ====
/-
  Stage 3 of the kernel as one whole-array function: the result, `(pu · m2 + r) · inv_3`, where the residual `r` is whatever array the stage finds in its third operand.

  The stage runs over 16 grid points.  At point t it holds rows t·512 … t·512 + 511 of the left matrix [8192, 4096] and of the
  residual [8192, 128], and the whole right matrix [4096, 128]; it computes, entry by entry, the product of its two blocks
  plus the residual block, times the scale, and writes that [512, 128] block back as rows t·512 … t·512 + 511 of the output.
  Entry (p, q) of the block is therefore entry (t·512 + p, q) of `stage a x r s` of the whole arrays; the 16 row blocks
  tile the 8192 rows; so the output array after the last write-back is `stage a x r s`.  The statement is at any contents
  `V` of the core's buffers at the stage's entry.
-/
import proofs.«144278_g8864812499581_cont_9to1_m_655_4_alg».proof.Proof.Gen.KernelIdeal.Frame
import proofs.«144278_g8864812499581_cont_9to1_m_655_4_alg».proof.Proof.HyperSpec
import Idealize.ShloMosaic.Lib.Pipeline.Value
import Idealize.ShloMosaic.Lib.ValueIdx

set_option maxRecDepth 16384

noncomputable section

namespace Cert.KernelIdeal.Stages

open Cert.KernelIdeal Cert.KernelIdeal.Gen Idealize.ShloMosaic Idealize.ShloMosaic.TcCoe Idealize.SL.Sem Idealize.ShloMosaic.ValueIdx
open Idealize.ShloMosaic.Pipeline (Dat)
open Cert.HyperConv

variable (V : (c : Dev nD) → (b : Ref sig .tc) → Buf (Elt Ideal) ((c : Thread nD τ).loc b))

/-- The body's arithmetic at entry (p, q) of its block: the matrix product's entry plus the residual's, times the scale
    (a change of float format is the identity on the extended reals, and the product is accumulated into zero). -/
theorem pay3_apply (x0 : Vec Ideal S512x4096 .f32) (x1 : Vec Ideal S4096x128 .f32) (x2 : Vec Ideal S512x128 .f32) (p : Fin 512) (q : Fin 128) :
    k3_pay1 (F := Ideal) x0 x1 x2 (ix2 p q)
      = (∑ k : Fin 4096, x0 (ix2 p k) * x1 (ix2 k q) + x2 (ix2 p q)) * Named.named (F := Ideal) κ "inv_3" (φ := .f32) 0x3EAAAAAB#32 := by
  unfold k3_pay1
  rw [shapeCast_self, shapeCast_self]
  exact congrArg (fun z : EReal => (z + x2 (ix2 p q)) * Named.named (F := Ideal) κ "inv_3" (φ := .f32) 0x3EAAAAAB#32)
    (PlainMatmul.matmul_zero_apply dot_S512x4096_S4096x128_S512x128_1_0_0_1_n_n.wf none
      (truncf .bf16 x0 bitsLt_bf16_f32) (truncf .bf16 x1 bitsLt_bf16_f32) p q)

/-- The block indices over the grid: the left matrix, the residual and the output move together down the rows, the right
    matrix stays, and every column index is 0. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = win3_3.index t (0 : Fin 2)
    ∧ win3_2.index t (1 : Fin 2) = 0
    ∧ win3_3.index t (1 : Fin 2) = 0
    ∧ win3_3.index t (0 : Fin 2) ≤ 15 :=
  (by decide +kernel : ∀ t : Fin grid3.N, _)

/-- Every row block is some point's. -/
theorem idx_onto3 : ∀ q0 : Fin 16, ∃ t : Fin cfg3.N, win3_3.index t = ![q0.val, 0] :=
  (by decide +kernel : ∀ q0 : Fin 16, ∃ t : Fin grid3.N, win3_3.index t = ![q0.val, 0])

/-- What point `t` writes back is block `t` of the stage of the whole arrays. -/
theorem flushed3_eq (c : Dev nD) (t : Fin cfg3.N) :
    (dat3 V c).flushed 3 t = ((cfg3.win 3).blk t).view.read (Elt Ideal)
      (stage (V c main_arg2) (V c main_v3) (V c main_v6) (Named.named (F := Ideal) κ "inv_3" (φ := .f32) 0x3EAAAAAB#32)) := by
  show (cfg3.win 3).cut (grid3.coords t) ((dat3 V c).after 3 t) = _
  rw [after3_3]
  unfold out3_3
  rw [View.canon_unit_zero origin2]
  simp only [View.ld_unit_zero (S := S512x4096) origin2, View.ld_unit_zero (S := S4096x128) origin2, View.ld_unit_zero (S := S512x128) origin2]
  obtain ⟨e0, e1, e2, e3, e4, e5, e6, e7⟩ := idx_facts3 t
  funext j
  show k3_pay1 (F := Ideal) (iblk3 V c 0 t) (iblk3 V c 1 t) (iblk3 V c 2 t) j
    = stage (V c main_arg2) (V c main_v3) (V c main_v6) (Named.named (F := Ideal) κ "inv_3" (φ := .f32) 0x3EAAAAAB#32) (((cfg3.win 3).blk t).view.emb j)
  refine stage_of_block (V c main_arg2) (V c main_v3) (V c main_v6) (Named.named (F := Ideal) κ "inv_3" (φ := .f32) 0x3EAAAAAB#32)
    (iblk3 V c 0 t) (iblk3 V c 1 t) (iblk3 V c 2 t) (k3_pay1 (F := Ideal) (iblk3 V c 0 t) (iblk3 V c 1 t) (iblk3 V c 2 t))
    (pay3_apply (iblk3 V c 0 t) (iblk3 V c 1 t) (iblk3 V c 2 t)) (win3_3.index t (0 : Fin 2)) ?_ ?_ ?_ j (((cfg3.win 3).blk t).view.emb j) ?_ ?_
  · intro p k i hi
    show V c main_arg2 (((cfg3.win 0).blk t).view.emb (ix2 p k)) = V c main_arg2 (ix2 i k)
    refine congrArg (V c main_arg2) (funext fun a => Fin.ext ?_)
    match a with
    | ⟨0, _⟩ => show win3_0.index t (0 : Fin 2) * 512 + 1 * p.val = i.val; omega
    | ⟨1, _⟩ => show win3_0.index t (1 : Fin 2) * 4096 + 1 * k.val = k.val; omega
  · funext y
    show V c main_v3 (((cfg3.win 1).blk t).view.emb y) = V c main_v3 y
    refine congrArg (V c main_v3) (funext fun a => Fin.ext ?_)
    match a with
    | ⟨0, _⟩ => show win3_1.index t (0 : Fin 2) * 4096 + 1 * (y 0).val = (y 0).val; omega
    | ⟨1, _⟩ => show win3_1.index t (1 : Fin 2) * 128 + 1 * (y 1).val = (y 1).val; omega
  · intro p q i hi
    show V c main_v6 (((cfg3.win 2).blk t).view.emb (ix2 p q)) = V c main_v6 (ix2 i q)
    refine congrArg (V c main_v6) (funext fun a => Fin.ext ?_)
    match a with
    | ⟨0, _⟩ => show win3_2.index t (0 : Fin 2) * 512 + 1 * p.val = i.val; omega
    | ⟨1, _⟩ => show win3_2.index t (1 : Fin 2) * 128 + 1 * q.val = q.val; omega
  · show win3_3.index t (0 : Fin 2) * 512 + 1 * (j 0).val = win3_3.index t (0 : Fin 2) * 512 + (j 0).val; omega
  · show win3_3.index t (1 : Fin 2) * 128 + 1 * (j 1).val = (j 1).val; omega

/-- An index of the output array is in point `t`'s block iff each coordinate is in the block's range on its axis. -/
theorem mem_blk3 (t : Fin cfg3.N) (i : S8192x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v7).slice (win3_3.rect t)).set ↔ _
  rw [View.set_slice_whole, Rect.mem_set_unit]
  exact Iff.rfl

/-- The row blocks tile the output: row `r` is in the block of the point whose block index is `r / 512`. -/
theorem cover3 (i : S8192x128.Idx) : ∃ t : Fin cfg3.N, (cfg3.win 3).flush t = true ∧ i ∈ ((cfg3.win 3).blk t).view.set := by
  have hi0 : (i 0).val < 8192 := (i 0).isLt
  have hi1 : (i 1).val < 128 := (i 1).isLt
  obtain ⟨t, ht⟩ := idx_onto3 ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 128 ≤ (i 1).val ∧ (i 1).val < win3_3.index t (1 : Fin 2) * 128 + 128; omega

/-- The output array after the stage's last write-back is the stage of the arrays it found. -/
theorem final3 (c : Dev nD) : (dat3 V c).arrAt 3 cfg3.N
    = stage (V c main_arg2) (V c main_v3) (V c main_v6) (Named.named (F := Ideal) κ "inv_3" (φ := .f32) 0x3EAAAAAB#32) :=
  (dat3 V c).arrAt_eq_of_cover 3 _ (fun t _ => flushed3_eq V c t) cover3

end Cert.KernelIdeal.Stages

end
-- ==== Proof.KernelValue.lean ====
/-
  The kernel's result as the mean of the layers.

  The run's fold names the contents of every buffer at each of the six segment boundaries.  Walking it: the first host
  stretch writes the zero residual; stage 0 leaves  m1 = up · p0;  stage 1 leaves  p1 = pu · m1 + p0;  stage 2 leaves
  m2 = up · p1;  the second host stretch writes the residual  p0 + 2 · p1;  stage 3 leaves  (pu · m2 + (p0 + 2 · p1)) · inv_3.
  A stage's inputs are never written by it, a buffer that is not one of a stage's arrays passes it unchanged, and the
  arguments are written by nothing, so each stage finds the arrays the earlier segments left.  The named scale denotes
  one third and the scale `1.0` denotes 1, so the result buffer ends at `meanOfLayers up pu p0`.
-/
import proofs.«144278_g8864812499581_cont_9to1_m_655_4_alg».proof.Proof.KernelRun
import proofs.«144278_g8864812499581_cont_9to1_m_655_4_alg».proof.Proof.Stage0
import proofs.«144278_g8864812499581_cont_9to1_m_655_4_alg».proof.Proof.Stage1
import proofs.«144278_g8864812499581_cont_9to1_m_655_4_alg».proof.Proof.Stage2
import proofs.«144278_g8864812499581_cont_9to1_m_655_4_alg».proof.Proof.Stage3
import Idealize.ShloMosaic.Lib.StableHlo.Run
import Idealize.ShloMosaic.PureOps.IdealRules

set_option maxRecDepth 16384

noncomputable section

namespace Cert.KernelIdeal.Valued

open Cert.KernelIdeal Cert.KernelIdeal.Gen Cert.KernelIdeal.Stages
open Idealize.ShloMosaic Idealize.ShloMosaic.TcCoe Idealize.SL.Sem Idealize.ShloMosaic.ValueIdx
open Idealize.ShloMosaic.Pipeline (Dat)
open Cert.HyperConv

variable (m : (ℓ : Loc nD τ sig) → Buf (Elt Ideal) ℓ) (ρ : Dev nD → PrngReg)

/-- The point embeddings a core was launched with. -/
abbrev p0 (c : Dev nD) : Mat 8192 128 := m ((c : Thread nD τ).loc main_arg0)
/-- The incidence matrix from points to users. -/
abbrev up (c : Dev nD) : Mat 4096 8192 := m ((c : Thread nD τ).loc main_arg1)
/-- The incidence matrix from users to points. -/
abbrev pu (c : Dev nD) : Mat 8192 4096 := m ((c : Thread nD τ).loc main_arg2)
/-- The first layer's output as the first two stages compute it. -/
abbrev p1 (c : Dev nD) : Mat 8192 128 :=
  stage (pu m c) (stage (up m c) (p0 m c) (fun _ => (0 : EReal)) (Ideal.ofBits .f32 0x3F800000#32)) (p0 m c) (Ideal.ofBits .f32 0x3F800000#32)

/-! ## The two splats the host writes -/

/-- The splat of `0.0` over [4096, 128] is zero everywhere. -/
theorem zeros_eq : (broadcastInDim S4096x128 ![] bcast_S_S4096x128 (constant (F := Ideal) S_ .f32 0x00000000#32) : Mat 4096 128)
    = fun _ => (0 : EReal) := by
  funext i
  rw [broadcastInDim_apply _ bcast_S_S4096x128 _ i (fun a => a.elim0) (fun a => a.elim0)]
  exact Ideal.ofBits_zero_f32

/-- The splat of `2.0` over [8192, 128] is the real 2 everywhere. -/
theorem twos_eq : (broadcastInDim S8192x128 ![] bcast_S_S8192x128 (constant (F := Ideal) S_ .f32 0x40000000#32) : Mat 8192 128)
    = fun _ => ((2 : ℝ) : EReal) := by
  funext i
  rw [broadcastInDim_apply _ bcast_S_S8192x128 _ i (fun a => a.elim0) (fun a => a.elim0)]
  exact ofBits_two

/-! ## After the first host stretch (the zero residual is written) -/

theorem W1_arg0 (c : Dev nD) : W1 m ρ c (Proc.devRef .tc main_arg0) = p0 m c := by
  show StableHlo.after hostOps0 (W0 m ρ c) (Proc.devRef .tc main_arg0) = _
  after_results
theorem W1_arg1 (c : Dev nD) : W1 m ρ c (Proc.devRef .tc main_arg1) = up m c := by
  show StableHlo.after hostOps0 (W0 m ρ c) (Proc.devRef .tc main_arg1) = _
  after_results
theorem W1_arg2 (c : Dev nD) : W1 m ρ c (Proc.devRef .tc main_arg2) = pu m c := by
  show StableHlo.after hostOps0 (W0 m ρ c) (Proc.devRef .tc main_arg2) = _
  after_results
theorem W1_v0 (c : Dev nD) : (W1 m ρ c (Proc.devRef .tc main_v0) : Mat 4096 128) = fun _ => (0 : EReal) := by
  refine Eq.trans ?_ zeros_eq
  show StableHlo.after hostOps0 (W0 m ρ c) (Proc.devRef .tc main_v0) = _
  after_results

/-! ## After stage 0: the first layer's messages -/

theorem W2_arg0 (c : Dev nD) : W2 m ρ c (Proc.devRef .tc main_arg0) = p0 m c :=
  (W2_arr m ρ c 1).trans (((dat0 (V1 m ρ) c).arrAt_in 1 rfl _).trans ((A_eq0 (V1 m ρ) c 1).trans (W1_arg0 m ρ c)))
theorem W2_arg1 (c : Dev nD) : W2 m ρ c (Proc.devRef .tc main_arg1) = up m c :=
  (W2_arr m ρ c 0).trans (((dat0 (V1 m ρ) c).arrAt_in 0 rfl _).trans ((A_eq0 (V1 m ρ) c 0).trans (W1_arg1 m ρ c)))
theorem W2_arg2 (c : Dev nD) : W2 m ρ c (Proc.devRef .tc main_arg2) = pu m c :=
  (W2_of_ne m ρ c main_arg2 (by decide)).trans (W1_arg2 m ρ c)
theorem W2_v0 (c : Dev nD) : (W2 m ρ c (Proc.devRef .tc main_v0) : Mat 4096 128) = fun _ => (0 : EReal) :=
  (W2_arr m ρ c 2).trans (((dat0 (V1 m ρ) c).arrAt_in 2 rfl _).trans ((A_eq0 (V1 m ρ) c 2).trans (W1_v0 m ρ c)))
theorem W2_v1 (c : Dev nD) : (W2 m ρ c (Proc.devRef .tc main_v1) : Mat 4096 128)
    = stage (up m c) (p0 m c) (fun _ => (0 : EReal)) (Ideal.ofBits .f32 0x3F800000#32) := by
  exact (W2_arr m ρ c 3).trans ((final0 (V1 m ρ) c).trans
    (stage_congr _ (W1_arg1 m ρ c) (W1_arg0 m ρ c) (W1_v0 m ρ c)))

/-! ## After stage 1: the first layer's output -/

theorem W3_arg0 (c : Dev nD) : W3 m ρ c (Proc.devRef .tc main_arg0) = p0 m c :=
  (W3_arr m ρ c 2).trans (((dat1 (V2 m ρ) c).arrAt_in 2 rfl _).trans ((A_eq1 (V2 m ρ) c 2).trans (W2_arg0 m ρ c)))
theorem W3_arg1 (c : Dev nD) : W3 m ρ c (Proc.devRef .tc main_arg1) = up m c :=
  (W3_of_ne m ρ c main_arg1 (by decide)).trans (W2_arg1 m ρ c)
theorem W3_arg2 (c : Dev nD) : W3 m ρ c (Proc.devRef .tc main_arg2) = pu m c :=
  (W3_arr m ρ c 0).trans (((dat1 (V2 m ρ) c).arrAt_in 0 rfl _).trans ((A_eq1 (V2 m ρ) c 0).trans (W2_arg2 m ρ c)))
theorem W3_v0 (c : Dev nD) : (W3 m ρ c (Proc.devRef .tc main_v0) : Mat 4096 128) = fun _ => (0 : EReal) :=
  (W3_of_ne m ρ c main_v0 (by decide)).trans (W2_v0 m ρ c)
theorem W3_v2 (c : Dev nD) : (W3 m ρ c (Proc.devRef .tc main_v2) : Mat 8192 128) = p1 m c := by
  exact (W3_arr m ρ c 3).trans ((final1 (V2 m ρ) c).trans
    (stage_congr _ (W2_arg2 m ρ c) (W2_v1 m ρ c) (W2_arg0 m ρ c)))

/-! ## After stage 2: the second layer's messages -/

theorem W4_arg0 (c : Dev nD) : W4 m ρ c (Proc.devRef .tc main_arg0) = p0 m c :=
  (W4_of_ne m ρ c main_arg0 (by decide)).trans (W3_arg0 m ρ c)
theorem W4_arg2 (c : Dev nD) : W4 m ρ c (Proc.devRef .tc main_arg2) = pu m c :=
  (W4_of_ne m ρ c main_arg2 (by decide)).trans (W3_arg2 m ρ c)
theorem W4_v2 (c : Dev nD) : (W4 m ρ c (Proc.devRef .tc main_v2) : Mat 8192 128) = p1 m c :=
  (W4_arr m ρ c 1).trans (((dat2 (V3 m ρ) c).arrAt_in 1 rfl _).trans ((A_eq2 (V3 m ρ) c 1).trans (W3_v2 m ρ c)))
theorem W4_v3 (c : Dev nD) : (W4 m ρ c (Proc.devRef .tc main_v3) : Mat 4096 128)
    = stage (up m c) (p1 m c) (fun _ => (0 : EReal)) (Ideal.ofBits .f32 0x3F800000#32) := by
  exact (W4_arr m ρ c 3).trans ((final2 (V3 m ρ) c).trans
    (stage_congr _ (W3_arg1 m ρ c) (W3_v2 m ρ c) (W3_v0 m ρ c)))

/-! ## After the second host stretch: the last residual `p0 + 2 · p1` is written -/

theorem W5_arg2 (c : Dev nD) : W5 m ρ c (Proc.devRef .tc main_arg2) = pu m c := by
  refine Eq.trans ?_ (W4_arg2 m ρ c)
  show StableHlo.after hostOps3 (W4 m ρ c) (Proc.devRef .tc main_arg2) = _
  after_results
theorem W5_v3 (c : Dev nD) : (W5 m ρ c (Proc.devRef .tc main_v3) : Mat 4096 128)
    = stage (up m c) (p1 m c) (fun _ => (0 : EReal)) (Ideal.ofBits .f32 0x3F800000#32) := by
  refine Eq.trans ?_ (W4_v3 m ρ c)
  show StableHlo.after hostOps3 (W4 m ρ c) (Proc.devRef .tc main_v3) = _
  after_results
theorem W5_v6 (c : Dev nD) : (W5 m ρ c (Proc.devRef .tc main_v6) : Mat 8192 128)
    = fun i => p0 m c i + ((2 : ℝ) : EReal) * p1 m c i := by
  have e : (W5 m ρ c (Proc.devRef .tc main_v6) : Mat 8192 128)
      = addf (W4 m ρ c (Proc.devRef .tc main_arg0) : Mat 8192 128)
          (mulf (broadcastInDim S8192x128 ![] bcast_S_S8192x128 (constant (F := Ideal) S_ .f32 0x40000000#32))
            (W4 m ρ c (Proc.devRef .tc main_v2) : Mat 8192 128)) := by
    show StableHlo.after hostOps3 (W4 m ρ c) (Proc.devRef .tc main_v6) = _
    after_results
  refine e.trans (funext fun i => ?_)
  exact congrArg₂ (fun a b : EReal => a + b) (congrFun (W4_arg0 m ρ c) i)
    (congrArg₂ (fun a b : EReal => a * b) (congrFun twos_eq i) (congrFun (W4_v2 m ρ c) i))

/-! ## After stage 3: the result -/

/-- The result buffer at the end of the fold is the four stages nested, the last with residual `p0 + 2 · p1` and the
    named scale. -/
theorem W6_v7 (c : Dev nD) : (W6 m ρ c (Proc.devRef .tc main_v7) : Mat 8192 128)
    = stage (pu m c) (stage (up m c) (p1 m c) (fun _ => (0 : EReal)) (Ideal.ofBits .f32 0x3F800000#32))
        (fun i => p0 m c i + ((2 : ℝ) : EReal) * p1 m c i) (Named.named (F := Ideal) κ "inv_3" (φ := .f32) 0x3EAAAAAB#32) := by
  exact (W6_arr m ρ c 3).trans ((final3 (V5 m ρ) c).trans
    (stage_congr _ (W5_arg2 m ρ c) (W5_v3 m ρ c) (W5_v6 m ρ c)))

/-- The kernel's named scale denotes one third. -/
theorem inv_3 : Named.named (F := Ideal) κ "inv_3" (φ := .f32) 0x3EAAAAAB#32 = ((1 / 3 : ℝ) : EReal) :=
  IdealRules.named_const.ideal_named_scalar _ _ _ _ rfl

/-- The result buffer ends at the mean of the embeddings before, between and after the two layers. -/
theorem result_eq (c : Dev nD) : (W6 m ρ c (Proc.devRef .tc main_v7) : Mat 8192 128) = meanOfLayers (up m c) (pu m c) (p0 m c) := by
  rw [W6_v7, inv_3]
  unfold p1
  rw [ofBits_one]
  exact stages_eq_mean (up m c) (pu m c) (p0 m c)

end Cert.KernelIdeal.Valued

end
-- ==== Proof.RefValue.lean ====
/-
  The reference's result as the mean of the layers.

  The reference multiplies twice per layer (`up · p`, then `pu ·` that), adds the residual, stacks the three embeddings
  p0, p1, p2 along a new leading axis, sums that axis from zero and divides by 3.  Each product is the matrix product entry
  by entry; level k of the stack is the k-th embedding; a sum of three terms from zero is their sum; and dividing an
  extended real by 3 is multiplying it by one third.  So the result is `meanOfLayers up pu p0`.
-/
import proofs.«144278_g8864812499581_cont_9to1_m_655_4_alg».proof.Proof.Gen.ReferenceIdeal.Read
import proofs.«144278_g8864812499581_cont_9to1_m_655_4_alg».proof.Proof.HyperSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.HyperConv Cert.MatProd

variable (x0 : Mat 8192 128) (x1 : Mat 4096 8192) (x2 : Mat 8192 4096)

/-! ## The two layers -/

/-- The first product is the users' messages `up · p0`. -/
theorem v0_eq : val_main_v0 (F := Ideal) x0 x1 = matProd x1 x0 :=
  dotGeneral_eq dot_S4096x8192_S8192x128_S4096x128_1_0_0_1_n_n.wf none .single x1 x0

/-- The first layer's output. -/
theorem v2_eq : val_main_v2 (F := Ideal) x0 x1 x2 = layer x1 x2 x0 := by
  unfold val_main_v2 val_main_v1
  rw [v0_eq]
  exact congrArg (fun z : Mat 8192 128 => (fun i => z i + x0 i))
    (dotGeneral_eq dot_S8192x4096_S4096x128_S8192x128_1_0_0_1_n_n.wf none .single x2 (matProd x1 x0))

/-- The second layer's messages `up · p1`. -/
theorem v3_eq : val_main_v3 (F := Ideal) x0 x1 x2 = matProd x1 (layer x1 x2 x0) := by
  unfold val_main_v3
  rw [v2_eq]
  exact dotGeneral_eq dot_S4096x8192_S8192x128_S4096x128_1_0_0_1_n_n.wf none .single x1 (layer x1 x2 x0)

/-- The second layer's output. -/
theorem v5_eq : val_main_v5 (F := Ideal) x0 x1 x2 = layer x1 x2 (layer x1 x2 x0) := by
  unfold val_main_v5 val_main_v4
  rw [v3_eq, v2_eq]
  exact congrArg (fun z : Mat 8192 128 => (fun i => z i + layer x1 x2 x0 i))
    (dotGeneral_eq dot_S8192x4096_S4096x128_S8192x128_1_0_0_1_n_n.wf none .single x2 (matProd x1 (layer x1 x2 x0)))

/-! ## The stack of the three embeddings, read at a level -/

/-- Level 0 of the stack is `p0`. -/
theorem v9_level0 (i : S8192x128.Idx) : val_main_v9 (F := Ideal) x0 x1 x2 (idx_main_v10 i 0) = x0 i := by
  unfold val_main_v9
  refine (concatenate_apply_piece (t := S3x8192x128) 0 _ _ (idx_main_v10 i 0) 0 (by show (0 : ℕ) < 3; omega) S1x8192x128
    (val_main_v6 (F := Ideal) x0) rfl rfl 0 rfl (ix3 0 (i 0) (i 1)) (fun b hb => ?_) rfl).trans ?_
  · match b with
    | ⟨0, _⟩ => exact absurd rfl hb
    | ⟨1, _⟩ => rfl
    | ⟨2, _⟩ => rfl
  · rw [val_main_v6_apply]
    exact congrArg x0 (funext fun a => Fin.ext (by match a with | ⟨0, _⟩ => rfl | ⟨1, _⟩ => rfl))

/-- Level 1 of the stack is `p1`. -/
theorem v9_level1 (i : S8192x128.Idx) : val_main_v9 (F := Ideal) x0 x1 x2 (idx_main_v10 i 1) = layer x1 x2 x0 i := by
  unfold val_main_v9
  refine (concatenate_apply_piece (t := S3x8192x128) 0 _ _ (idx_main_v10 i 1) 1 (by show (1 : ℕ) < 3; omega) S1x8192x128
    (val_main_v7 (F := Ideal) x0 x1 x2) rfl rfl 1 rfl (ix3 0 (i 0) (i 1)) (fun b hb => ?_) rfl).trans ?_
  · match b with
    | ⟨0, _⟩ => exact absurd rfl hb
    | ⟨1, _⟩ => rfl
    | ⟨2, _⟩ => rfl
  · rw [val_main_v7_apply, v2_eq]
    exact congrArg (layer x1 x2 x0) (funext fun a => Fin.ext (by match a with | ⟨0, _⟩ => rfl | ⟨1, _⟩ => rfl))

/-- Level 2 of the stack is `p2`. -/
theorem v9_level2 (i : S8192x128.Idx) : val_main_v9 (F := Ideal) x0 x1 x2 (idx_main_v10 i 2) = layer x1 x2 (layer x1 x2 x0) i := by
  unfold val_main_v9
  refine (concatenate_apply_piece (t := S3x8192x128) 0 _ _ (idx_main_v10 i 2) 2 (by show (2 : ℕ) < 3; omega) S1x8192x128
    (val_main_v8 (F := Ideal) x0 x1 x2) rfl rfl 2 rfl (ix3 0 (i 0) (i 1)) (fun b hb => ?_) rfl).trans ?_
  · match b with
    | ⟨0, _⟩ => exact absurd rfl hb
    | ⟨1, _⟩ => rfl
    | ⟨2, _⟩ => rfl
  · rw [val_main_v8_apply, v5_eq]
    exact congrArg (layer x1 x2 (layer x1 x2 x0)) (funext fun a => Fin.ext (by match a with | ⟨0, _⟩ => rfl | ⟨1, _⟩ => rfl))

/-! ## The mean -/

/-- The reference's result is the mean of the three embeddings: the sum over the stack's three levels from zero, divided
    by 3, which on every extended real is the product with one third. -/
theorem result_eq : val_main_v12 (F := Ideal) x0 x1 x2 = meanOfLayers x1 x2 x0 := by
  funext i
  rw [val_main_v12_apply, val_main_v10_apply, val_main_v11_apply, val_main_cst_apply, val_main_cst_0_apply,
    Fin.sum_univ_three, v9_level0, v9_level1, v9_level2]
  simp only [Ideal.hostDivf_def, Ideal.ofBits_def, Ideal.ofBits_zero_f32, ofBits_three, zero_add,
    Ideal.div_coe (by norm_num : (3 : ℝ) ≠ 0)]
  rfl

end Cert.ReferenceIdeal.RefValue

end
-- ==== Proof.lean ====
/-
  The kernel against its reference: two layers of hypergraph propagation and their mean.

  Both programs take point embeddings p0 : [8192, 128] and two dense incidence matrices up : [4096, 8192] and
  pu : [8192, 4096].  One layer sends p to  pu · (up · p) + p;  with p1 = layer p0 and p2 = layer p1 the result is the mean
  (p0 + p1 + p2) / 3.

  The kernel computes it in four pipelined stages of the form (a · x + r) · s, each over row blocks of 512:
  m1 = up · p0,  p1 = pu · m1 + p0,  m2 = up · p1,  and  (pu · m2 + (p0 + 2 · p1)) · inv_3,  where the last residual is
  written by the host between the third and fourth stages and inv_3 is the kernel's literal for one third, read as the
  rational 1/3.  The reference forms the same four products, stacks p0, p1, p2, sums the stack and divides by 3.

  On the extended reals the two results are one function of the arguments.  The products are nested the same way on
  both sides, so no sum is reordered; each stage's row blocks tile its output, so the stage is a whole-array function;
  and  x + (p0 + 2 · p1) = p0 + p1 + (x + p1)  holds entry by entry because doubling is adding a number to itself and
  addition is commutative and associative, at the infinities too, while dividing by 3 is multiplying by 1/3.  Nothing
  is distributed or cancelled, so the finiteness of the inputs is never used.

  The three frames: the word-level kernel's and the idealized kernel's are the generated frame certificates of the
  six-segment run; the reference's is its generated run with the result dropped.  The one rewrite of the idealization
  is the naming of one third.
-/
import proofs.«144278_g8864812499581_cont_9to1_m_655_4_alg».proof.Defs
import proofs.«144278_g8864812499581_cont_9to1_m_655_4_alg».proof.Proof.Gen.Kernel
import proofs.«144278_g8864812499581_cont_9to1_m_655_4_alg».proof.Proof.Gen.Kernel.Skeleton
import proofs.«144278_g8864812499581_cont_9to1_m_655_4_alg».proof.Proof.Gen.Kernel.Launch
import proofs.«144278_g8864812499581_cont_9to1_m_655_4_alg».proof.Proof.Gen.Kernel.Points
import proofs.«144278_g8864812499581_cont_9to1_m_655_4_alg».proof.Proof.Gen.Kernel.Frame
import proofs.«144278_g8864812499581_cont_9to1_m_655_4_alg».proof.Proof.Gen.KernelIdeal
import proofs.«144278_g8864812499581_cont_9to1_m_655_4_alg».proof.Proof.Gen.KernelIdeal.Skeleton
import proofs.«144278_g8864812499581_cont_9to1_m_655_4_alg».proof.Proof.Gen.KernelIdeal.Launch
import proofs.«144278_g8864812499581_cont_9to1_m_655_4_alg».proof.Proof.Gen.KernelIdeal.Points
import proofs.«144278_g8864812499581_cont_9to1_m_655_4_alg».proof.Proof.Gen.KernelIdeal.Frame
import proofs.«144278_g8864812499581_cont_9to1_m_655_4_alg».proof.Proof.Gen.ReferenceIdeal
import proofs.«144278_g8864812499581_cont_9to1_m_655_4_alg».proof.Proof.Gen.ReferenceIdeal.Run
import proofs.«144278_g8864812499581_cont_9to1_m_655_4_alg».proof.Proof.Gen.ReferenceIdeal.Read
import proofs.«144278_g8864812499581_cont_9to1_m_655_4_alg».proof.Proof.Gen.Pre_finite_inputs
import proofs.«144278_g8864812499581_cont_9to1_m_655_4_alg».proof.Proof.KernelRun
import proofs.«144278_g8864812499581_cont_9to1_m_655_4_alg».proof.Proof.KernelValue
import proofs.«144278_g8864812499581_cont_9to1_m_655_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the literal for one third is named, and the name denotes 1/3. -/
theorem preserves : Cert.preserves_Kernel_KernelIdeal :=
  IdealRules.named_const.statement Cert.KernelIdeal.κ "inv_3" .f32 0x3EAAAAAB#32 ((1 / 3 : ℝ) : EReal) rfl

/-- From memories agreeing on the arguments both programs end with the mean of the layers in their result buffers. -/
theorem algebraic : Cert.algebraic_KernelIdeal_ReferenceIdeal := by
  intro m ρ m' ρ' _ hagree
  refine ⟨fun c => Cert.HyperConv.meanOfLayers (Cert.KernelIdeal.Valued.up m c) (Cert.KernelIdeal.Valued.pu m c)
    (Cert.KernelIdeal.Valued.p0 m c), ?_, ?_⟩
  · exact (θ_run Cert.KernelIdeal.defs _ _).mono
      (fun r h c => ⟨(h c).1.trans (Cert.KernelIdeal.Valued.result_eq m ρ c), (h c).2⟩)
      (Cert.KernelIdeal.Valued.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
